-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x8192 : Shape := ⟨2, ![2, 8192]⟩
abbrev S4x2x8192 : Shape := ⟨3, ![4, 2, 8192]⟩
abbrev S2x2048x3 : Shape := ⟨3, ![2, 2048, 3]⟩
abbrev S2x1024x3 : Shape := ⟨3, ![2, 1024, 3]⟩
abbrev S2x2048 : Shape := ⟨2, ![2, 2048]⟩
abbrev S1x2x1024 : Shape := ⟨3, ![1, 2, 1024]⟩
abbrev S2x1024 : Shape := ⟨2, ![2, 1024]⟩
abbrev S2x2048x1024 : Shape := ⟨3, ![2, 2048, 1024]⟩
abbrev S2x2048x1 : Shape := ⟨3, ![2, 2048, 1]⟩
abbrev S2x1x1024 : Shape := ⟨3, ![2, 1, 1024]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S4x2x8192, .f32⟩
  | .hbm, ⟨4, _⟩ => ⟨S_, .f32⟩
  | .hbm, ⟨5, _⟩ => ⟨S2x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S2x2048x3, .f32⟩
  | .local _ .vmem, ⟨1, _⟩ => ⟨S2x2048x3, .f32⟩
  | .local _ .vmem, ⟨2, _⟩ => ⟨S2x1024x3, .f32⟩
  | .local _ .vmem, ⟨3, _⟩ => ⟨S2x1024x3, .f32⟩
  | .local _ .vmem, ⟨4, _⟩ => ⟨S2x2048, .f32⟩
  | .local _ .vmem, ⟨5, _⟩ => ⟨S2x2048, .f32⟩
  | .local _ .vmem, ⟨6, _⟩ => ⟨S1x2x1024, .f32⟩
  | .local _ .vmem, ⟨7, _⟩ => ⟨S1x2x1024, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S2x2048_S2x2048_0_0 : ∀ a, (![0, 0] : Fin 2 → Nat) a + S2x2048.size a ≤ S2x2048.size a
  h_S2x2048 : 0 < S2x2048.numel
  inb_S2x2048x3_S2x2048x3_0_0_0 : ∀ a, (![0, 0, 0] : Fin 3 → Nat) a + S2x2048x3.size a ≤ S2x2048x3.size a
  h_S2x2048x3 : 0 < S2x2048x3.numel
  inb_S2x1024x3_S2x1024x3_0_0_0 : ∀ a, (![0, 0, 0] : Fin 3 → Nat) a + S2x1024x3.size a ≤ S2x1024x3.size a
  h_S2x1024x3 : 0 < S2x1024x3.numel
  reduces_S2x2048x3_S2x2048 : S2x2048x3.Reduces [2] S2x2048
  reduces_S2x1024x3_S2x1024 : S2x1024x3.Reduces [2] S2x1024
  shapeCasts_S2x2048_S2x2048x1 : S2x2048.ShapeCasts S2x2048x1
  shapeCasts_S2x1024_S2x1x1024 : S2x1024.ShapeCasts S2x1x1024
  broadcasts_S2x2048x1_S2x2048x1024 : S2x2048x1.Broadcasts S2x2048x1024
  broadcasts_S2x1x1024_S2x2048x1024 : S2x1x1024.Broadcasts S2x2048x1024
  shapeCasts_S2x2048_S2x2048 : S2x2048.ShapeCasts S2x2048
  reduces_S2x2048x1024_S2x2048 : S2x2048x1024.Reduces [2] S2x2048
  reduces_S2x2048x1024_S2x1024 : S2x2048x1024.Reduces [1] S2x1024
  inb_S1x2x1024_S1x2x1024_0_0_0 : ∀ a, (![0, 0, 0] : Fin 3 → Nat) a + S1x2x1024.size a ≤ S1x2x1024.size a
  h_S1x2x1024 : 0 < S1x2x1024.numel
  shapeCasts_S1x2x1024_S2x1024 : S1x2x1024.ShapeCasts S2x1024
  shapeCasts_S2x1024_S1x2x1024 : S2x1024.ShapeCasts S1x2x1024
  reducesTo_S4x2x8192_S2x8192_d0 : S4x2x8192.ReducesTo [0] S2x8192
  h_S_ : 0 < S_.numel
  reducesTo_S2x8192_S_d0_1 : S2x8192.ReducesTo [0, 1] S_
  dot_S2x2048x3_S2x1024x3_S2x2048x1024_2_2_1_1_0_0_wf : DotDims.WF S2x2048x3 S2x1024x3 S2x2048x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x3.size a ≤ S2x8192x3.size a
  hwx0_0 : ∀ i : grid0.Coords, EltTy.bits .f32 = 32 ∨ (Rect.block (s := S2x8192x3) S2x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x3.size a ≤ S2x8192x3.size a
  hwx0_1 : ∀ i : grid0.Coords, EltTy.bits .f32 = 32 ∨ (Rect.block (s := S2x8192x3) S2x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048.size a ≤ S2x8192.size a
  hwx0_2 : ∀ i : grid0.Coords, EltTy.bits .f32 = 32 ∨ (Rect.block (s := S2x8192) S2x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x1024.size a ≤ S4x2x8192.size a
  hwx0_3 : ∀ i : grid0.Coords, EltTy.bits .f32 = 32 ∨ (Rect.block (s := S4x2x8192) S1x2x1024.size (cc0_transform_3 i) (hinb0_3 i)).WholeWords (EltTy.packing .f32)

variable [Facts₀]

def dot_S2x2048x3_S2x1024x3_S2x2048x1024_2_2_1_1_0_0 : DotDims S2x2048x3 S2x1024x3 S2x2048x1024 where
  lhsContracting := [2]
  rhsContracting := [2]
  lhsNonContracting := [1]
  rhsNonContracting := [1]
  lhsBatch := [0]
  rhsBatch := [0]
  wf := dot_S2x2048x3_S2x1024x3_S2x2048x1024_2_2_1_1_0_0_wf

abbrev win0_0 : Pipeline.Window sig grid0 :=
  Pipeline.Window.ofSpec (Memref.whole main_arg0) S2x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192, .f32⟩
  | .hbm, ⟨20, _⟩ => ⟨S_, .f32⟩
  | .hbm, ⟨21, _⟩ => ⟨S2x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S_d0_1 : S2x8192.ReducesTo [0, 1] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Found.lean ====
/-
  What one run of the kernel body leaves in its two output blocks, as values of the blocks it was given.

  At the first point of a column sweep the body first stores +∞ over the whole row-minimum block, reads it back, and
  stores the running minimum over it; at every other point it reads what the point before left and stores the running
  minimum over that. Either way the row-minimum block ends as one whole-block store of the running-minimum payload,
  and the column-minimum block as one whole-block store of the column-minimum payload: a block written whole through
  a rectangle that starts at the origin holds exactly the stored value, and a whole-block load returns the block.
-/
import proofs.«107196_j4733053960750_2_alg».proof.Proof.Gen.KernelIdeal.Frame
import Idealize.ShloMosaic.Lib.Pipeline.Value
import Idealize.ShloMosaic.Lib.Tactic

noncomputable section

namespace Cert.KernelIdeal.Found

open Idealize.ShloMosaic Idealize.ShloMosaic.TcCoe Idealize.ShloMosaic.Tactic Idealize.SL.Sem Cert.KernelIdeal Cert.KernelIdeal.Gen

variable {F : FTy → Type} [FloatOps F]

/-- The origin of a two-axis block. -/
theorem hz2 : (![0, 0] : Fin 2 → Nat) = fun _ => 0 := funext fun a => by fin_cases a <;> rfl
/-- The origin of a three-axis block. -/
theorem hz3 : (![0, 0, 0] : Fin 3 → Nat) = fun _ => 0 := funext fun a => by fin_cases a <;> rfl

/-- Away from the first point of a sweep the row-minimum block ends at the running minimum over what it held. -/
theorem rowB (c : Dev nD) (i : grid0.Coords) (a2 : Memref sig .tc .vmem S2x2048x3 .f32) (h2 : a2.IsWhole) (a3 : Memref sig .tc .vmem S2x1024x3 .f32) (h3 : a3.IsWhole) (a4 : Memref sig .tc .vmem S2x2048 .f32) (h4 : a4.IsWhole) (a5 : Memref sig .tc .vmem S1x2x1024 .f32) (h5 : a5.IsWhole) (hc : ¬cond0_0 i)
    (x0 : Vec F S2x2048x3 .f32) (x1 : Vec F S2x1024x3 .f32) (xo2 : Vec F S2x2048 .f32) :
    out0_B_2 c i a2 h2 a3 h3 a4 h4 a5 h5 hc x0 x1 xo2 = k0_pay3 x0 x1 xo2 := by
  unfold out0_B_2
  rw [View.read_writes_eq_canon _ _ _ (cover0_B_2 c i a2 h2 a3 h3 a4 h4 a5 h5 hc x0 x1 xo2)]
  unfold kernelRun0_B
  dsimp only
  rw [View.canon_unit_zero hz2]
  simp only [View.readAt_eq_ld, h2.read_unread, h3.read_unread, View.ld_unit_zero (S := S2x2048x3) hz3, View.ld_unit_zero (S := S2x1024x3) hz3, h4.read_unread, View.ld_unit_zero (S := S2x2048) hz2]

/-- At the first point of a sweep the row-minimum block ends at the running minimum over +∞. -/
theorem rowA (c : Dev nD) (i : grid0.Coords) (a2 : Memref sig .tc .vmem S2x2048x3 .f32) (h2 : a2.IsWhole) (a3 : Memref sig .tc .vmem S2x1024x3 .f32) (h3 : a3.IsWhole) (a4 : Memref sig .tc .vmem S2x2048 .f32) (h4 : a4.IsWhole) (a5 : Memref sig .tc .vmem S1x2x1024 .f32) (h5 : a5.IsWhole) (hc : cond0_0 i)
    (x0 : Vec F S2x2048x3 .f32) (x1 : Vec F S2x1024x3 .f32) :
    out0_A_2 c i a2 h2 a3 h3 a4 h4 a5 h5 hc x0 x1 = k0_pay3 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S2x2048) hz2, View.readCov_unit_zero (S := S2x2048) _ hz2]
  simp only [View.readAt_eq_ld, h2.read_unread, h3.read_unread, View.ld_unit_zero (S := S2x2048x3) hz3, View.ld_unit_zero (S := S2x1024x3) hz3]

/-- At the first point of a sweep the column-minimum block ends at this tile's column minimum. -/
theorem colA (c : Dev nD) (i : grid0.Coords) (a2 : Memref sig .tc .vmem S2x2048x3 .f32) (h2 : a2.IsWhole) (a3 : Memref sig .tc .vmem S2x1024x3 .f32) (h3 : a3.IsWhole) (a4 : Memref sig .tc .vmem S2x2048 .f32) (h4 : a4.IsWhole) (a5 : Memref sig .tc .vmem S1x2x1024 .f32) (h5 : a5.IsWhole) (hc : cond0_0 i)
    (x0 : Vec F S2x2048x3 .f32) (x1 : Vec F S2x1024x3 .f32) :
    out0_A_3 c i a2 h2 a3 h3 a4 h4 a5 h5 hc x0 x1 = k0_pay4 x0 x1 := by
  unfold out0_A_3
  rw [View.read_writes_eq_canon _ _ _ (cover0_A_3 c i a2 h2 a3 h3 a4 h4 a5 h5 hc x0 x1)]
  unfold kernelRun0_A
  dsimp only
  sl_unfold_words
  rw [View.canon_unit_zero hz3]
  simp only [View.readAt_eq_ld, h2.read_unread, h3.read_unread, View.ld_unit_zero (S := S2x2048x3) hz3, View.ld_unit_zero (S := S2x1024x3) hz3]

/-- And so it does at every other point. -/
theorem colB (c : Dev nD) (i : grid0.Coords) (a2 : Memref sig .tc .vmem S2x2048x3 .f32) (h2 : a2.IsWhole) (a3 : Memref sig .tc .vmem S2x1024x3 .f32) (h3 : a3.IsWhole) (a4 : Memref sig .tc .vmem S2x2048 .f32) (h4 : a4.IsWhole) (a5 : Memref sig .tc .vmem S1x2x1024 .f32) (h5 : a5.IsWhole) (hc : ¬cond0_0 i)
    (x0 : Vec F S2x2048x3 .f32) (x1 : Vec F S2x1024x3 .f32) (xo2 : Vec F S2x2048 .f32) :
    out0_B_3 c i a2 h2 a3 h3 a4 h4 a5 h5 hc x0 x1 xo2 = k0_pay4 x0 x1 := by
  unfold out0_B_3
  rw [View.read_writes_eq_canon _ _ _ (cover0_B_3 c i a2 h2 a3 h3 a4 h4 a5 h5 hc x0 x1 xo2)]
  unfold kernelRun0_B
  dsimp only
  rw [View.canon_unit_zero hz3]
  simp only [View.readAt_eq_ld, h2.read_unread, h3.read_unread, View.ld_unit_zero (S := S2x2048x3) hz3, View.ld_unit_zero (S := S2x1024x3) hz3]

end Cert.KernelIdeal.Found

end
-- ==== Proof.LibInfChunks.lean ====
/-
  Infima over a finite range cut into equal chunks, on any meet-semilattice with a top element.

  A minimum taken tile by tile is the minimum over everything: an infimum over the first `n * B` numbers is the
  infimum over the `n` chunks of each chunk's infimum (`inf_chunks`); a running infimum over the chunks `0 … k`
  grows by one chunk at a time (`inf_filter_le_zero`, `inf_filter_le_succ`) and is the whole infimum once `k` is
  the last chunk (`inf_filter_le_last`). In a linear order a fold of `min` from the top element over a finite set
  is that set's infimum (`fold_min_top`). Nothing here mentions a float or a program.
-/
import Mathlib.Data.Finset.Lattice.Fold
import Mathlib.Data.Finset.Fold
import Mathlib.Data.Fintype.Basic
import Mathlib.Order.Fin.Basic

namespace InfChunks

/-- Position `j` of chunk `c`, chunks of `B`, lies among the first `n * B` numbers. -/
theorem chunk_lt {n B : ℕ} (c : Fin n) (j : Fin B) : c.val * B + j.val < n * B := by
  have h1 : (c.val + 1) * B ≤ n * B := Nat.mul_le_mul_right B c.isLt
  have h2 := j.isLt
  rw [Nat.add_mul, Nat.one_mul] at h1
  omega

section Lattice

variable {α : Type*} [SemilatticeInf α] [OrderTop α]

/-- An infimum over `N = n * B` positions is the infimum over the `n` chunks of each chunk's infimum over its
    `B` positions, position `j` of chunk `c` being `c * B + j`. -/
theorem inf_chunks {N n B : ℕ} (hN : N = n * B) (f : Fin N → α) :
    Finset.univ.inf f
      = Finset.univ.inf fun c : Fin n => Finset.univ.inf fun j : Fin B =>
          f ⟨c.val * B + j.val, hN ▸ chunk_lt c j⟩ := by
  subst hN
  apply le_antisymm
  · exact Finset.le_inf fun c _ => Finset.le_inf fun j _ => Finset.inf_le (Finset.mem_univ _)
  · refine Finset.le_inf fun i _ => ?_
    have hB : 0 < B := by
      rcases Nat.eq_zero_or_pos B with h | h
      · subst h; exact absurd i.isLt (by simp)
      · exact h
    have hc : i.val / B < n := Nat.div_lt_of_lt_mul (lt_of_lt_of_eq i.isLt (Nat.mul_comm n B))
    have hj : i.val % B < B := Nat.mod_lt _ hB
    have e : (⟨(⟨i.val / B, hc⟩ : Fin n).val * B + (⟨i.val % B, hj⟩ : Fin B).val, chunk_lt _ _⟩ : Fin (n * B)) = i :=
      Fin.ext (Nat.div_add_mod' _ _)
    calc (Finset.univ.inf fun c : Fin n => Finset.univ.inf fun j : Fin B => f ⟨c.val * B + j.val, chunk_lt c j⟩)
        ≤ Finset.univ.inf fun j : Fin B => f ⟨(⟨i.val / B, hc⟩ : Fin n).val * B + j.val, chunk_lt _ j⟩ :=
          Finset.inf_le (f := fun c : Fin n => Finset.univ.inf fun j : Fin B => f ⟨c.val * B + j.val, chunk_lt c j⟩)
            (Finset.mem_univ (⟨i.val / B, hc⟩ : Fin n))
      _ ≤ f ⟨(⟨i.val / B, hc⟩ : Fin n).val * B + (⟨i.val % B, hj⟩ : Fin B).val, chunk_lt _ _⟩ :=
          Finset.inf_le (f := fun j : Fin B => f ⟨(⟨i.val / B, hc⟩ : Fin n).val * B + j.val, chunk_lt _ j⟩)
            (Finset.mem_univ (⟨i.val % B, hj⟩ : Fin B))
      _ = f i := congrArg f e

/-- The running infimum over the chunks up to chunk `0` is chunk `0`'s value. -/
theorem inf_filter_le_zero {n : ℕ} (g : Fin n → α) (h0 : 0 < n) :
    (Finset.univ.filter fun c : Fin n => c.val ≤ 0).inf g = g ⟨0, h0⟩ := by
  have e : (Finset.univ.filter fun c : Fin n => c.val ≤ 0) = {⟨0, h0⟩} := by
    ext c
    simp only [Finset.mem_filter, Finset.mem_univ, true_and, Finset.mem_singleton, Fin.ext_iff]
    omega
  rw [e, Finset.inf_singleton]

/-- The running infimum over the chunks up to `k + 1` is the one up to `k` met with chunk `k + 1`'s value. -/
theorem inf_filter_le_succ {n : ℕ} (g : Fin n → α) (k : ℕ) (hk : k + 1 < n) :
    (Finset.univ.filter fun c : Fin n => c.val ≤ k + 1).inf g
      = (Finset.univ.filter fun c : Fin n => c.val ≤ k).inf g ⊓ g ⟨k + 1, hk⟩ := by
  have e : (Finset.univ.filter fun c : Fin n => c.val ≤ k + 1)
      = insert (⟨k + 1, hk⟩ : Fin n) (Finset.univ.filter fun c : Fin n => c.val ≤ k) := by
    ext c
    simp only [Finset.mem_filter, Finset.mem_univ, true_and, Finset.mem_insert, Fin.ext_iff]
    omega
  rw [e, Finset.inf_insert, inf_comm]

/-- Once `k` is the last chunk, the running infimum is the infimum over every chunk. -/
theorem inf_filter_le_last {n : ℕ} (g : Fin n → α) (k : ℕ) (hk : n ≤ k + 1) :
    (Finset.univ.filter fun c : Fin n => c.val ≤ k).inf g = Finset.univ.inf g := by
  rw [Finset.filter_true_of_mem fun c _ => by have := c.isLt; omega]

end Lattice

/-- In a linear order with a top element, folding `min` from the top over a finite set is the set's infimum. -/
theorem fold_min_top {ι β : Type*} [LinearOrder β] [OrderTop β] (s : Finset ι) (f : ι → β) :
    s.fold min ⊤ f = s.inf f := by
  induction s using Finset.cons_induction with
  | empty => simp
  | cons a s ha ih => rw [Finset.fold_cons, Finset.inf_cons, ih]

end InfChunks
-- ==== Proof.Dist.lean ====
/-
  The mathematics of the claim, with no program in sight.

  For two clouds of 8192 points in three coordinates per batch, the squared distance from point `n` of the first
  to point `m` of the second is written two ways. The reference expands the square and subtracts twice the inner
  product: (0 + Σ x²) + (0 + Σ y²) − 2·(Σ x·y). The kernel scales the second cloud by −2 before the inner product
  and adds: (Σ x² + Σ y²) + Σ x·(−2·y). Moving the factor −2 across the three-term sum is distributivity, which on
  the extended reals needs the summands finite; on real inputs both are the same real number (`distK_eq_distR`).

  Over any such distance `d` the results are minima: for each point of the first cloud the least distance to the
  second (`rowMin`), for each point of the second the least distance to the first (`colMin`), and, the rows cut
  into four tiles of 2048, the least distance within one tile (`tileMin`); the minimum over the four tiles of the
  tile minima is the minimum over all rows (`colMin_eq_inf_tileMin`).
-/
import Idealize.ShloMosaic.PureOps.Ideal
import Idealize.ShloMosaic.PureOps.Ideal.Laws
import Idealize.ShloMosaic.Lib.ValueIdx
import proofs.«107196_j4733053960750_2_alg».proof.Proof.LibInfChunks

noncomputable section

namespace Chamfer

open Idealize.ShloMosaic Idealize.ShloMosaic.ValueIdx

/-! ## The float words the two programs spell -/

/-- The word `0x7F800000` is +∞, the top of the extended reals. -/
theorem word_top : Ideal.ofBits .f32 0x7F800000#32 = (⊤ : EReal) := by
  simp [Ideal.ofBits, Ideal.ieee]

/-- The word `0x40000000` is the real 2. -/
theorem word_two : Ideal.ofBits .f32 0x40000000#32 = ((2 : ℝ) : EReal) := by
  simp [Ideal.ofBits, Ideal.ieee, -EReal.coe_mul]; norm_num

/-- The word `0xC0000000` is the real −2. -/
theorem word_neg_two : Ideal.ofBits .f32 0xC0000000#32 = ((-2 : ℝ) : EReal) := by
  simp [Ideal.ofBits, Ideal.ieee, -EReal.coe_mul]; norm_num

/-! ## The squared distance, in both spellings -/

/-- A cloud: per batch 8192 points of three coordinates. -/
abbrev Cloud : Type := (⟨3, ![2, 8192, 3]⟩ : Shape).Idx → EReal

/-- The reference's spelling: (0 + Σ x²) + (0 + Σ y²) − 2·(Σ x·y). -/
def distR (x y : Cloud) (b : Fin 2) (n m : Fin 8192) : EReal :=
  ((Ideal.ofBits .f32 0x00000000#32 + ∑ k : Fin 3, x (ix3 b n k) * x (ix3 b n k))
      + (Ideal.ofBits .f32 0x00000000#32 + ∑ k : Fin 3, y (ix3 b m k) * y (ix3 b m k)))
    - Ideal.ofBits .f32 0x40000000#32 * ∑ k : Fin 3, x (ix3 b n k) * y (ix3 b m k)

/-- The kernel's spelling: (Σ x² + Σ y²) + Σ x·(−2·y). -/
def distK (x y : Cloud) (b : Fin 2) (n m : Fin 8192) : EReal :=
  ((∑ k : Fin 3, x (ix3 b n k) * x (ix3 b n k)) + ∑ k : Fin 3, y (ix3 b m k) * y (ix3 b m k))
    + ∑ k : Fin 3, x (ix3 b n k) * (Ideal.ofBits .f32 0xC0000000#32 * y (ix3 b m k))

/-- On real inputs the two spellings are one real number: −2 leaves the three-term sum by distributivity. -/
theorem distK_eq_distR (xr yr : (⟨3, ![2, 8192, 3]⟩ : Shape).Idx → ℝ) (b : Fin 2) (n m : Fin 8192) :
    distK (fun i => ((xr i : ℝ) : EReal)) (fun i => ((yr i : ℝ) : EReal)) b n m
      = distR (fun i => ((xr i : ℝ) : EReal)) (fun i => ((yr i : ℝ) : EReal)) b n m := by
  unfold distK distR
  rw [Ideal.ofBits_zero_f32, word_two, word_neg_two, Fin.sum_univ_three, Fin.sum_univ_three, Fin.sum_univ_three,
    Fin.sum_univ_three, zero_add, zero_add]
  simp only [← EReal.coe_mul, ← EReal.coe_add, ← EReal.coe_sub]
  exact congrArg _ (by ring)

/-! ## The minima -/

/-- A distance between the points of two clouds, per batch. -/
abbrev Dist : Type := Fin 2 → Fin 8192 → Fin 8192 → EReal

/-- For each point of the first cloud, the least distance to a point of the second. -/
def rowMin (d : Dist) : (⟨2, ![2, 8192]⟩ : Shape).Idx → EReal :=
  fun i => Finset.univ.inf fun m : Fin 8192 => d (i 0) (i 1) m

/-- For each point of the second cloud, the least distance to a point of the first. -/
def colMin (d : Dist) : (⟨2, ![2, 8192]⟩ : Shape).Idx → EReal :=
  fun i => Finset.univ.inf fun n : Fin 8192 => d (i 0) n (i 1)

/-- Row `r` of row tile `c`, tiles of 2048 rows. -/
def row (c : Fin 4) (r : Fin 2048) : Fin 8192 := ⟨c.val * 2048 + r.val, InfChunks.chunk_lt c r⟩

/-- Column `j` of column tile `c`, tiles of 1024 columns. -/
def col (c : Fin 8) (j : Fin 1024) : Fin 8192 := ⟨c.val * 1024 + j.val, InfChunks.chunk_lt c j⟩

/-- For each row tile and each point of the second cloud, the least distance to a point of that tile. -/
def tileMin (d : Dist) : (⟨3, ![4, 2, 8192]⟩ : Shape).Idx → EReal :=
  fun i => Finset.univ.inf fun r : Fin 2048 => d (i 1) (row (i 0) r) (i 2)

theorem rowMin_apply (d : Dist) (b : Fin 2) (n : Fin 8192) :
    rowMin d (ix2 b n) = Finset.univ.inf fun m : Fin 8192 => d b n m := rfl

theorem colMin_apply (d : Dist) (b : Fin 2) (m : Fin 8192) :
    colMin d (ix2 b m) = Finset.univ.inf fun n : Fin 8192 => d b n m := rfl

theorem tileMin_apply (d : Dist) (c : Fin 4) (b : Fin 2) (m : Fin 8192) :
    tileMin d (ix3 c b m) = Finset.univ.inf fun r : Fin 2048 => d b (row c r) m := rfl

/-- The least distance over all rows is the least, over the four row tiles, of the tile's least distance. -/
theorem colMin_eq_inf_tileMin (d : Dist) (b : Fin 2) (m : Fin 8192) :
    colMin d (ix2 b m) = Finset.univ.inf fun c : Fin 4 => tileMin d (ix3 c b m) := by
  rw [colMin_apply]
  exact InfChunks.inf_chunks (n := 4) (B := 2048) (by norm_num) fun n : Fin 8192 => d b n m

/-- The least distance over all columns is the least, over the eight column tiles, of the tile's least distance. -/
theorem rowMin_eq_inf_cols (d : Dist) (b : Fin 2) (n : Fin 8192) :
    rowMin d (ix2 b n)
      = Finset.univ.inf fun c : Fin 8 => Finset.univ.inf fun j : Fin 1024 => d b n (col c j) := by
  rw [rowMin_apply]
  exact InfChunks.inf_chunks (n := 8) (B := 1024) (by norm_num) fun m : Fin 8192 => d b n m

/-- If two distances agree everywhere, so do their minima. -/
theorem rowMin_congr {d d' : Dist} (h : ∀ b n m, d b n m = d' b n m) : rowMin d = rowMin d' :=
  funext fun i => Finset.inf_congr rfl fun m _ => h _ _ m

theorem colMin_congr {d d' : Dist} (h : ∀ b n m, d b n m = d' b n m) : colMin d = colMin d' :=
  funext fun i => Finset.inf_congr rfl fun n _ => h _ n _

end Chamfer

end
-- ==== Proof.Payload.lean ====
/-
  The kernel body's arithmetic, read entry by entry on the extended reals.

  One grid point holds a block `x0` of 2048 points of the first cloud and a block `x1` of 1024 points of the second.
  The body forms the 2048 × 1024 tile of squared distances `(Σ x0² + Σ x1²) + Σ x0·(−2·x1)` (`blockDist`): the two
  sums of squares are lane sums laid out as a column and as a row and broadcast over the tile, the cross term is a
  matrix product contracted over the three coordinates. From the tile it takes each row's minimum, met with the running
  minimum the output block already holds, and each column's minimum. A minimum reduction starts from +∞, the top of
  the extended reals, so it is the infimum over the reduced coordinate.
-/
import proofs.«107196_j4733053960750_2_alg».proof.Proof.Gen.KernelIdeal.Skeleton
import proofs.«107196_j4733053960750_2_alg».proof.Proof.Dist
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Pay

open Idealize.ShloMosaic Idealize.ShloMosaic.ValueIdx Cert.KernelIdeal Cert.KernelIdeal.Gen

/-- The tile's entry (r, j) of batch b: the squared distance from point r of the block `x0` to point j of the block
    `x1`, in the kernel's arrangement. -/
def blockDist (x0 : FVec Ideal S2x2048x3 .f32) (x1 : FVec Ideal S2x1024x3 .f32) (b : Fin 2) (r : Fin 2048) (j : Fin 1024) : EReal :=
  ((∑ k : Fin 3, x0 (ix3 b r k) * x0 (ix3 b r k)) + ∑ k : Fin 3, x1 (ix3 b j k) * x1 (ix3 b j k))
    + ∑ k : Fin 3, x0 (ix3 b r k) * (Ideal.ofBits .f32 0xC0000000#32 * x1 (ix3 b j k))

/-! ## Reductions along one axis -/

/-- A sum over the three coordinates of a point: entry (b, r) is Σₖ v (b, r, k). -/
theorem coord_sum {a : ℕ} (v : FVec Ideal ⟨3, ![2, a, 3]⟩ .f32) (h : (⟨3, ![2, a, 3]⟩ : Shape).Reduces [2] ⟨2, ![2, a]⟩)
    (hφ : FKind.Formats .f32) (hacc : (0x00000000#32 : BitVec 32) = FKind.add.neutral .f32 hφ) (b : Fin 2) (r : Fin a) :
    multiReduction .add [2] ⟨2, ![2, a]⟩ v 0x00000000#32 h hφ hacc (ix2 b r) = ∑ k : Fin 3, v (ix3 b r k) := by
  refine (Ideal.multiReduction_add_single v _ h hφ hacc (ix2 b r)).trans ?_
  refine Finset.sum_congr rfl fun k _ => congrArg v (funext fun c => Fin.ext ?_)
  match c with
  | ⟨0, _⟩ => rfl
  | ⟨1, _⟩ => rfl
  | ⟨2, _⟩ => rfl

/-- A row's minimum over the tile's 1024 columns, from +∞: the infimum over the columns. -/
theorem row_min (v : FVec Ideal S2x2048x1024 .f32) (h : S2x2048x1024.Reduces [2] S2x2048)
    (hφ : FKind.Formats .f32) (hacc : (0x7F800000#32 : BitVec 32) = FKind.minimumf.neutral .f32 hφ) (b : Fin 2) (r : Fin 2048) :
    multiReduction .minimumf [2] S2x2048 v 0x7F800000#32 h hφ hacc (ix2 b r)
      = Finset.univ.inf fun j : Fin 1024 => v (ix3 b r j) := by
  refine ((multiReduction_minimumf_eq_fold (F := Ideal) v 0x7F800000#32 h hφ hacc (ix2 b r)).trans
    (h.fold_filter_drop_single FloatOps.minimumf (FloatOps.ofBits .f32 0x7F800000#32) v (ix2 b r))).trans ?_
  show (Finset.univ : Finset (Fin 1024)).fold min (Ideal.ofBits .f32 0x7F800000#32) (fun j => v (h.lift (ix2 b r) j)) = _
  rw [Chamfer.word_top]
  refine (InfChunks.fold_min_top (Finset.univ : Finset (Fin 1024)) fun j => v (h.lift (ix2 b r) j)).trans ?_
  refine Finset.inf_congr rfl fun j _ => congrArg v (funext fun c => Fin.ext ?_)
  match c with
  | ⟨0, _⟩ => rfl
  | ⟨1, _⟩ => rfl
  | ⟨2, _⟩ => rfl

/-- A column's minimum over the tile's 2048 rows, from +∞: the infimum over the rows. -/
theorem col_min (v : FVec Ideal S2x2048x1024 .f32) (h : S2x2048x1024.Reduces [1] S2x1024)
    (hφ : FKind.Formats .f32) (hacc : (0x7F800000#32 : BitVec 32) = FKind.minimumf.neutral .f32 hφ) (b : Fin 2) (j : Fin 1024) :
    multiReduction .minimumf [1] S2x1024 v 0x7F800000#32 h hφ hacc (ix2 b j)
      = Finset.univ.inf fun r : Fin 2048 => v (ix3 b r j) := by
  refine ((multiReduction_minimumf_eq_fold (F := Ideal) v 0x7F800000#32 h hφ hacc (ix2 b j)).trans
    (h.fold_filter_drop_single FloatOps.minimumf (FloatOps.ofBits .f32 0x7F800000#32) v (ix2 b j))).trans ?_
  show (Finset.univ : Finset (Fin 2048)).fold min (Ideal.ofBits .f32 0x7F800000#32) (fun r => v (h.lift (ix2 b j) r)) = _
  rw [Chamfer.word_top]
  refine (InfChunks.fold_min_top (Finset.univ : Finset (Fin 2048)) fun r => v (h.lift (ix2 b j) r)).trans ?_
  refine Finset.inf_congr rfl fun r _ => congrArg v (funext fun c => Fin.ext ?_)
  match c with
  | ⟨0, _⟩ => rfl
  | ⟨1, _⟩ => rfl
  | ⟨2, _⟩ => rfl

/-! ## The sums of squares laid over the tile -/

/-- A per-row value cast to a column and broadcast over the tile's columns reads, at (b, r, j), the value at (b, r). -/
theorem over_cols (u : FVec Ideal S2x2048 .f32) (b : Fin 2) (r : Fin 2048) (j : Fin 1024) :
    broadcastTo S2x2048x1024 (shapeCast S2x2048x1 u shapeCasts_S2x2048_S2x2048x1) broadcasts_S2x2048x1_S2x2048x1024 (ix3 b r j)
      = u (ix2 b r) := by
  refine (broadcastTo_apply _ broadcasts_S2x2048x1_S2x2048x1024 (ix3 b r j) (ix3 b r (0 : Fin 1)) fun a => ?_).trans ?_
  · match a with
    | ⟨0, _⟩ => rfl
    | ⟨1, _⟩ => rfl
    | ⟨2, _⟩ => rfl
  · exact shapeCast_apply u shapeCasts_S2x2048_S2x2048x1 _ _ (by
      rw [Shape.rowMajor_val_two, Shape.rowMajor_val_three]
      show b.val * 2048 + r.val = (b.val * 2048 + r.val) * 1 + 0
      omega)

/-- A per-column value cast to a row and broadcast over the tile's rows reads, at (b, r, j), the value at (b, j). -/
theorem over_rows (w : FVec Ideal S2x1024 .f32) (b : Fin 2) (r : Fin 2048) (j : Fin 1024) :
    broadcastTo S2x2048x1024 (shapeCast S2x1x1024 w shapeCasts_S2x1024_S2x1x1024) broadcasts_S2x1x1024_S2x2048x1024 (ix3 b r j)
      = w (ix2 b j) := by
  refine (broadcastTo_apply _ broadcasts_S2x1x1024_S2x2048x1024 (ix3 b r j) (ix3 b (0 : Fin 1) j) fun a => ?_).trans ?_
  · match a with
    | ⟨0, _⟩ => rfl
    | ⟨1, _⟩ => rfl
    | ⟨2, _⟩ => rfl
  · exact shapeCast_apply w shapeCasts_S2x1024_S2x1x1024 _ _ (by
      rw [Shape.rowMajor_val_two, Shape.rowMajor_val_three]
      show b.val * 1024 + j.val = (b.val * 1 + 0) * 1024 + j.val
      omega)

/-! ## The cross term: a matrix product contracted over the three coordinates -/

/-- The product's dimension record: batch axis 0 on both sides, the coordinates contracted. -/
abbrev D := dot_S2x2048x3_S2x1024x3_S2x2048x1024_2_2_1_1_0_0

theorem lhs_0 (i : S2x2048x1024.Idx) (q : D.contr.Idx) : (D.lhsIdx i q 0).val = (i 0).val := by
  unfold DotDims.lhsIdx
  rw [dif_pos (show (0 : Fin S2x2048x3.rank) ∈ D.lhsBatch by decide)]
  rfl
theorem lhs_1 (i : S2x2048x1024.Idx) (q : D.contr.Idx) : (D.lhsIdx i q 1).val = (i 1).val := by
  unfold DotDims.lhsIdx
  rw [dif_neg (show ¬(1 : Fin S2x2048x3.rank) ∈ D.lhsBatch by decide), dif_pos (show (1 : Fin S2x2048x3.rank) ∈ D.lhsNonContracting by decide)]
  rfl
theorem lhs_2 (i : S2x2048x1024.Idx) (q : D.contr.Idx) : (D.lhsIdx i q 2).val = (q ⟨0, by decide⟩).val :=
  D.lhsIdx_val_of_single rfl i q
theorem rhs_0 (i : S2x2048x1024.Idx) (q : D.contr.Idx) : (D.rhsIdx i q 0).val = (i 0).val := by
  unfold DotDims.rhsIdx
  rw [dif_pos (show (0 : Fin S2x1024x3.rank) ∈ D.rhsBatch by decide)]
  rfl
theorem rhs_1 (i : S2x2048x1024.Idx) (q : D.contr.Idx) : (D.rhsIdx i q 1).val = (i 2).val := by
  unfold DotDims.rhsIdx
  rw [dif_neg (show ¬(1 : Fin S2x1024x3.rank) ∈ D.rhsBatch by decide), dif_pos (show (1 : Fin S2x1024x3.rank) ∈ D.rhsNonContracting by decide)]
  rfl
theorem rhs_2 (i : S2x2048x1024.Idx) (q : D.contr.Idx) : (D.rhsIdx i q 2).val = (q ⟨0, by decide⟩).val :=
  D.rhsIdx_val_of_single rfl i q

/-- Into a zero accumulator the product at (b, r, j) is Σₖ x0 (b, r, k) · w (b, j, k). -/
theorem cross_apply (x0 : FVec Ideal S2x2048x3 .f32) (w : FVec Ideal S2x1024x3 .f32) (b : Fin 2) (r : Fin 2048) (j : Fin 1024) :
    matmul D none x0 w (constant (F := Ideal) S2x2048x1024 .f32 0x00000000#32) (ix3 b r j)
      = ∑ k : Fin 3, x0 (ix3 b r k) * w (ix3 b j k) := by
  simp only [matmul]
  rw [Ideal.matmul_constant_zero_apply, ← Equiv.sum_comp (ValueIdx.contrEquiv1 D 3 rfl rfl).symm]
  refine Finset.sum_congr rfl fun k _ => ?_
  have hk := ValueIdx.contrEquiv1_symm_val D 3 rfl rfl k
  have el : D.lhsIdx (ix3 b r j) ((ValueIdx.contrEquiv1 D 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : D.rhsIdx (ix3 b r j) ((ValueIdx.contrEquiv1 D 3 rfl rfl).symm k) = ix3 b j k := funext fun a => Fin.ext (by
    match a with
    | ⟨0, _⟩ => exact rhs_0 _ _
    | ⟨1, _⟩ => exact rhs_1 _ _
    | ⟨2, _⟩ => exact (rhs_2 _ _).trans hk)
  rw [el, er]

/-! ## The four payloads -/

/-- The value the first grid point of a column sweep stores: +∞ everywhere. -/
theorem pay1_apply (i : S2x2048.Idx) : k0_pay1 (F := Ideal) i = (⊤ : EReal) := by
  unfold k0_pay1
  exact Chamfer.word_top

/-- The tile of squared distances. -/
theorem pay2_apply (x0 : FVec Ideal S2x2048x3 .f32) (x1 : FVec Ideal S2x1024x3 .f32) (b : Fin 2) (r : Fin 2048) (j : Fin 1024) :
    k0_pay2 (F := Ideal) x0 x1 (ix3 b r j) = blockDist x0 x1 b r j := by
  unfold k0_pay2 blockDist
  dsimp only
  refine (addf_apply _ _ _).trans (congrArg₂ (· + ·) ((addf_apply _ _ _).trans (congrArg₂ (· + ·) ?_ ?_)) ?_)
  · exact (over_cols _ b r j).trans (coord_sum _ _ _ _ b r)
  · exact (over_rows _ b r j).trans (coord_sum _ _ _ _ b j)
  · exact cross_apply x0 _ b r j

/-- The running row minimum: what the output block held, met with this tile's row minimum. -/
theorem pay3_apply (x0 : FVec Ideal S2x2048x3 .f32) (x1 : FVec Ideal S2x1024x3 .f32) (acc : FVec Ideal S2x2048 .f32)
    (b : Fin 2) (r : Fin 2048) :
    k0_pay3 (F := Ideal) x0 x1 acc (ix2 b r)
      = min (acc (ix2 b r)) (Finset.univ.inf fun j : Fin 1024 => blockDist x0 x1 b r j) := by
  unfold k0_pay3
  dsimp only
  refine (minimumf_apply _ _ _).trans (congrArg₂ min ?_ ?_)
  · exact congrFun (shapeCast_self acc shapeCasts_S2x2048_S2x2048) _
  · exact (row_min _ _ _ _ b r).trans (Finset.inf_congr rfl fun j _ => pay2_apply x0 x1 b r j)

/-- This tile's column minimum. -/
theorem pay4_apply (x0 : FVec Ideal S2x2048x3 .f32) (x1 : FVec Ideal S2x1024x3 .f32) (u : Fin 1) (b : Fin 2) (j : Fin 1024) :
    k0_pay4 (F := Ideal) x0 x1 (ix3 u b j) = Finset.univ.inf fun r : Fin 2048 => blockDist x0 x1 b r j := by
  unfold k0_pay4
  dsimp only
  refine (shapeCast_ab_1ab_apply _ shapeCasts_S2x1024_S1x2x1024 u b j).trans ?_
  exact (col_min _ _ _ _ b j).trans (Finset.inf_congr rfl fun r _ => pay2_apply x0 x1 b r j)

end Cert.KernelIdeal.Pay

end
-- ==== Proof.Blocks.lean ====
/-
  From the body's blocks to the two output arrays.

  The grid is 4 row tiles by 8 column tiles, the column tile moving fastest: point t is row tile t / 8 and column tile
  t % 8. At point t the body sees rows (t / 8)·2048 + r of the first cloud and rows (t % 8)·1024 + j of the second, so
  its tile of squared distances is the distance table at those rows and columns (`tile_dist`).

  The column minimum is written back at every point: block (t / 8, ·, t % 8) of the tile-minimum array is the tile's
  column minimum, and these 32 blocks tile the array (`final_tiles`).

  The row minimum is carried across a sweep of the eight column tiles: after column tile p of row tile q the block holds
  the infimum over the column tiles 0 … p (`sweep`, by induction on p: the first point starts from +∞, each later point
  meets what the point before left with its own tile's row minimum). It is written back after the last column tile,
  when that infimum is over every column, and the four written blocks tile the array (`final_rows`).
-/
import proofs.«107196_j4733053960750_2_alg».proof.Proof.Gen.KernelIdeal.Frame
import proofs.«107196_j4733053960750_2_alg».proof.Proof.Found
import proofs.«107196_j4733053960750_2_alg».proof.Proof.Payload
import proofs.«107196_j4733053960750_2_alg».proof.Proof.Dist
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The first cloud as core `c` finds it. -/
abbrev X (c : Dev nD) : Chamfer.Cloud := m ((c : Thread nD τ).loc main_arg0)
/-- The second cloud as core `c` finds it. -/
abbrev Y (c : Dev nD) : Chamfer.Cloud := m ((c : Thread nD τ).loc main_arg1)
/-- The squared distance between them, in the kernel's arrangement. -/
abbrev dK (c : Dev nD) : Chamfer.Dist := Chamfer.distK (X m c) (Y m c)

/-! ## The grid: where each window's block sits at each point -/

theorem idx0 : ∀ t : Fin cfg0.N, win0_0.index t (0 : Fin 3) = 0 ∧ win0_0.index t (1 : Fin 3) = t.val / 8 ∧ win0_0.index t (2 : Fin 3) = 0 :=
  (by decide +kernel : ∀ t : Fin grid0.N, _)
theorem idx1 : ∀ t : Fin cfg0.N, win0_1.index t (0 : Fin 3) = 0 ∧ win0_1.index t (1 : Fin 3) = t.val % 8 ∧ win0_1.index t (2 : Fin 3) = 0 :=
  (by decide +kernel : ∀ t : Fin grid0.N, _)
theorem idx2 : ∀ t : Fin cfg0.N, win0_2.index t (0 : Fin 2) = 0 ∧ win0_2.index t (1 : Fin 2) = t.val / 8 :=
  (by decide +kernel : ∀ t : Fin grid0.N, _)
theorem idx3 : ∀ t : Fin cfg0.N, win0_3.index t (0 : Fin 3) = t.val / 8 ∧ win0_3.index t (1 : Fin 3) = 0 ∧ win0_3.index t (2 : Fin 3) = t.val % 8 :=
  (by decide +kernel : ∀ t : Fin grid0.N, _)

/-- The grid has 32 points. -/
theorem lt32 (t : Fin cfg0.N) : t.val < 32 := lt_of_lt_of_eq t.isLt (show cfg0.N = 32 from N_0)

/-! ## The input blocks -/

/-- Row r of the first cloud's block at a point of row tile q is row q·2048 + r of the cloud. -/
theorem iblk0_apply (c : Dev nD) (t : Fin cfg0.N) (q : Fin 4) (hq : t.val / 8 = q.val) (b : Fin 2) (r : Fin 2048) (k : Fin 3) :
    (iblk m c 0 t : Vec Ideal S2x2048x3 .f32) (ix3 b r k) = X m c (ix3 b (Chamfer.row q r) k) := by
  obtain ⟨i0, i1, i2⟩ := idx0 t
  unfold iblk
  rw [View.read_apply]
  show V m c main_arg0 _ = m ((c : Thread nD τ).loc main_arg0) _
  refine congrArg (m ((c : Thread nD τ).loc main_arg0)) (funext fun a => Fin.ext ?_)
  match a with
  | ⟨0, _⟩ => show win0_0.index t (0 : Fin 3) * 2 + 1 * b.val = b.val; rw [i0]; omega
  | ⟨1, _⟩ => show win0_0.index t (1 : Fin 3) * 2048 + 1 * r.val = q.val * 2048 + r.val; rw [i1, hq]; omega
  | ⟨2, _⟩ => show win0_0.index t (2 : Fin 3) * 3 + 1 * k.val = k.val; rw [i2]; omega

/-- Row j of the second cloud's block at a point of column tile p is row p·1024 + j of the cloud. -/
theorem iblk1_apply (c : Dev nD) (t : Fin cfg0.N) (p : Fin 8) (hp : t.val % 8 = p.val) (b : Fin 2) (j : Fin 1024) (k : Fin 3) :
    (iblk m c 1 t : Vec Ideal S2x1024x3 .f32) (ix3 b j k) = Y m c (ix3 b (Chamfer.col p j) k) := by
  obtain ⟨i0, i1, i2⟩ := idx1 t
  unfold iblk
  rw [View.read_apply]
  show V m c main_arg1 _ = m ((c : Thread nD τ).loc main_arg1) _
  refine congrArg (m ((c : Thread nD τ).loc main_arg1)) (funext fun a => Fin.ext ?_)
  match a with
  | ⟨0, _⟩ => show win0_1.index t (0 : Fin 3) * 2 + 1 * b.val = b.val; rw [i0]; omega
  | ⟨1, _⟩ => show win0_1.index t (1 : Fin 3) * 1024 + 1 * j.val = p.val * 1024 + j.val; rw [i1, hp]; omega
  | ⟨2, _⟩ => show win0_1.index t (2 : Fin 3) * 3 + 1 * k.val = k.val; rw [i2]; omega

/-- The body's tile at a point of row tile q and column tile p is the distance table at those rows and columns. -/
theorem tile_dist (c : Dev nD) (t : Fin cfg0.N) (q : Fin 4) (p : Fin 8) (hq : t.val / 8 = q.val) (hp : t.val % 8 = p.val)
    (b : Fin 2) (r : Fin 2048) (j : Fin 1024) :
    Pay.blockDist (iblk m c 0 t) (iblk m c 1 t) b r j = dK m c b (Chamfer.row q r) (Chamfer.col p j) := by
  show _ = Chamfer.distK (X m c) (Y m c) b (Chamfer.row q r) (Chamfer.col p j)
  unfold Pay.blockDist Chamfer.distK
  refine congrArg₂ (· + ·) (congrArg₂ (· + ·) (Finset.sum_congr rfl fun k _ => ?_) (Finset.sum_congr rfl fun k _ => ?_))
    (Finset.sum_congr rfl fun k _ => ?_)
  · exact congrArg₂ (· * ·) (iblk0_apply m c t q hq b r k) (iblk0_apply m c t q hq b r k)
  · exact congrArg₂ (· * ·) (iblk1_apply m c t p hp b j k) (iblk1_apply m c t p hp b j k)
  · exact congrArg₂ (· * ·) (iblk0_apply m c t q hq b r k)
      (congrArg (Ideal.ofBits .f32 0xC0000000#32 * ·) (iblk1_apply m c t p hp b j k))

/-! ## What the two output blocks hold after each point -/

/-- At the first point of a sweep: the running minimum over +∞, and the tile's column minimum. -/
theorem outs_A (c : Dev nD) (t : Fin cfg0.N) (h0 : t.val % 8 = 0) :
    outsAt0 m c t.val t.isLt
      = (k0_pay3 (iblk m c 0 t) (iblk m c 1 t) (k0_pay1 (F := Ideal)), k0_pay4 (iblk m c 0 t) (iblk m c 1 t)) := by
  rw [outsAt0_A m c t h0]
  exact congrArg₂ Prod.mk
    (Found.rowA c (grid0.coords t) (ms0_0 t) (hs0_0 t) (ms0_1 t) (hs0_1 t) (ms0_2 t) (hs0_2 t) (ms0_3 t) (hs0_3 t) ((hcond0_0 t).mpr h0) (iblk m c 0 t) (iblk m c 1 t))
    (Found.colA c (grid0.coords t) (ms0_0 t) (hs0_0 t) (ms0_1 t) (hs0_1 t) (ms0_2 t) (hs0_2 t) (ms0_3 t) (hs0_3 t) ((hcond0_0 t).mpr h0) (iblk m c 0 t) (iblk m c 1 t))

/-- At every other point: the running minimum over what the point before left, and the tile's column minimum. -/
theorem outs_B (c : Dev nD) (t : Fin cfg0.N) (h0 : ¬t.val % 8 = 0) :
    outsAt0 m c t.val t.isLt
      = (k0_pay3 (iblk m c 0 t) (iblk m c 1 t) (outsAt0 m c (t.val - 1) (Nat.lt_of_le_of_lt (Nat.sub_le _ _) t.isLt)).1,
          k0_pay4 (iblk m c 0 t) (iblk m c 1 t)) := by
  rw [outsAt0_B m c t h0]
  exact congrArg₂ Prod.mk
    (Found.rowB c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1)
    (Found.colB c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1)

/-- The contents after a point depend on the point's number only. -/
theorem outs_congr (c : Dev nD) {n n' : ℕ} (h : n < cfg0.N) (h' : n' < cfg0.N) (e : n = n') :
    outsAt0 m c n h = outsAt0 m c n' h' := by
  subst e; rfl

/-- The column-minimum block after a point of row tile q and column tile p: for each column of the tile the least
    distance to a row of the tile. -/
theorem tile_cols (c : Dev nD) (t : Fin cfg0.N) (q : Fin 4) (p : Fin 8) (hq : t.val / 8 = q.val) (hp : t.val % 8 = p.val)
    (u : Fin 1) (b : Fin 2) (j : Fin 1024) :
    (outsAt0 m c t.val t.isLt).2 (ix3 u b j)
      = Finset.univ.inf fun r : Fin 2048 => dK m c b (Chamfer.row q r) (Chamfer.col p j) := by
  have e : (outsAt0 m c t.val t.isLt).2 = k0_pay4 (iblk m c 0 t) (iblk m c 1 t) := by
    by_cases h0 : t.val % 8 = 0
    · rw [outs_A m c t h0]
    · rw [outs_B m c t h0]
  rw [e]
  exact (Pay.pay4_apply (iblk m c 0 t) (iblk m c 1 t) u b j).trans
    (Finset.inf_congr rfl fun r _ => tile_dist m c t q p hq hp b r j)

/-- The running row minimum after column tile p of row tile q: the least distance from a row of the tile to a column
    of the column tiles 0 … p. -/
def runRow (d : Chamfer.Dist) (q : Fin 4) (p : ℕ) (b : Fin 2) (r : Fin 2048) : EReal :=
  (Finset.univ.filter fun c' : Fin 8 => c'.val ≤ p).inf fun c' =>
    Finset.univ.inf fun j : Fin 1024 => d b (Chamfer.row q r) (Chamfer.col c' j)

/-- One sweep of the eight column tiles of row tile q: after column tile p the row-minimum block holds the running row
    minimum. -/
theorem sweep (c : Dev nD) (q : Fin 4) : ∀ (p : ℕ) (hp : p < 8) (h : 8 * q.val + p < cfg0.N) (b : Fin 2) (r : Fin 2048),
    (outsAt0 m c (8 * q.val + p) h).1 (ix2 b r) = runRow (dK m c) q p b r
  | 0, hp, h, b, r => by
    have hq : (⟨8 * q.val + 0, h⟩ : Fin cfg0.N).val / 8 = q.val := by show (8 * q.val + 0) / 8 = q.val; omega
    have hp0 : (⟨8 * q.val + 0, h⟩ : Fin cfg0.N).val % 8 = (⟨0, hp⟩ : Fin 8).val := by show (8 * q.val + 0) % 8 = 0; omega
    refine (congrFun (congrArg Prod.fst (outs_A m c ⟨8 * q.val + 0, h⟩ hp0)) (ix2 b r)).trans ?_
    refine (Pay.pay3_apply (iblk m c 0 ⟨8 * q.val + 0, h⟩) (iblk m c 1 ⟨8 * q.val + 0, h⟩) (k0_pay1 (F := Ideal)) b r).trans ?_
    rw [Pay.pay1_apply, min_top_left]
    unfold runRow
    rw [InfChunks.inf_filter_le_zero _ (by norm_num : 0 < 8)]
    exact Finset.inf_congr rfl fun j _ => tile_dist m c ⟨8 * q.val + 0, h⟩ q ⟨0, hp⟩ hq hp0 b r j
  | p + 1, hp, h, b, r => by
    have hq : (⟨8 * q.val + (p + 1), h⟩ : Fin cfg0.N).val / 8 = q.val := by show (8 * q.val + (p + 1)) / 8 = q.val; omega
    have hp1 : (⟨8 * q.val + (p + 1), h⟩ : Fin cfg0.N).val % 8 = (⟨p + 1, hp⟩ : Fin 8).val := by
      show (8 * q.val + (p + 1)) % 8 = p + 1; omega
    have hB : ¬(⟨8 * q.val + (p + 1), h⟩ : Fin cfg0.N).val % 8 = 0 := by show ¬(8 * q.val + (p + 1)) % 8 = 0; omega
    have h' : 8 * q.val + p < cfg0.N := by omega
    refine (congrFun (congrArg Prod.fst (outs_B m c ⟨8 * q.val + (p + 1), h⟩ hB)) (ix2 b r)).trans ?_
    refine (Pay.pay3_apply (iblk m c 0 ⟨8 * q.val + (p + 1), h⟩) (iblk m c 1 ⟨8 * q.val + (p + 1), h⟩) _ b r).trans ?_
    have eprev := outs_congr m c (Nat.lt_of_le_of_lt (Nat.sub_le _ _) (⟨8 * q.val + (p + 1), h⟩ : Fin cfg0.N).isLt) h'
      (show (⟨8 * q.val + (p + 1), h⟩ : Fin cfg0.N).val - 1 = 8 * q.val + p by show 8 * q.val + (p + 1) - 1 = 8 * q.val + p; omega)
    rw [eprev, sweep c q p (by omega) h' b r]
    unfold runRow
    rw [InfChunks.inf_filter_le_succ _ p hp]
    exact congrArg (min _ ·) (Finset.inf_congr rfl fun j _ => tile_dist m c ⟨8 * q.val + (p + 1), h⟩ q ⟨p + 1, hp⟩ hq hp1 b r j)

/-! ## The row-minimum array -/

/-- An index lies in point t's block of the row-minimum array iff each coordinate lies in the block's range. -/
theorem mem_rows (t : Fin cfg0.N) (i : S2x8192.Idx) :
    i ∈ ((cfg0.win 2).blk t).view.set ↔ ∀ a : Fin 2, win0_2.index t a * S2x2048.size a ≤ (i a).val ∧ (i a).val < win0_2.index t a * S2x2048.size a + S2x2048.size a := by
  show i ∈ ((View.whole main_v0_0).slice (win0_2.rect t)).set ↔ _
  rw [View.set_slice_whole, Rect.mem_set_unit]
  exact Iff.rfl

/-- What the last point of a sweep writes back, entry by entry: the least distance over every column. -/
theorem flush_rows_at (c : Dev nD) (t : Fin cfg0.N) (h7 : t.val % 8 = 7) (y : S2x2048.Idx) :
    (outsAt0 m c t.val t.isLt).1 y = Chamfer.rowMin (dK m c) (((cfg0.win 2).blk t).view.emb y) := by
  obtain ⟨b, r, rfl⟩ : ∃ (b : Fin 2) (r : Fin 2048), y = ix2 b r := ⟨y 0, y 1, eq_ix2 y⟩
  have h32 := lt32 t
  obtain ⟨i0, i1⟩ := idx2 t
  have hq4 : t.val / 8 < 4 := by omega
  have hlt : 8 * (⟨t.val / 8, hq4⟩ : Fin 4).val + 7 < cfg0.N :=
    lt_of_lt_of_eq (show 8 * (t.val / 8) + 7 < 32 by omega) (show (32 : ℕ) = cfg0.N from N_0.symm)
  have et : t.val = 8 * (⟨t.val / 8, hq4⟩ : Fin 4).val + 7 := by show t.val = 8 * (t.val / 8) + 7; omega
  have eemb : ((cfg0.win 2).blk t).view.emb (ix2 b r) = ix2 b (Chamfer.row ⟨t.val / 8, hq4⟩ r) := by
    funext a; apply Fin.ext
    match a with
    | ⟨0, _⟩ => show win0_2.index t (0 : Fin 2) * 2 + 1 * b.val = b.val; rw [i0]; omega
    | ⟨1, _⟩ => show win0_2.index t (1 : Fin 2) * 2048 + 1 * r.val = t.val / 8 * 2048 + r.val; rw [i1]; omega
  rw [eemb, outs_congr m c t.isLt hlt et, sweep m c ⟨t.val / 8, hq4⟩ 7 (by norm_num) hlt b r]
  unfold runRow
  rw [InfChunks.inf_filter_le_last _ 7 (by norm_num)]
  exact (Chamfer.rowMin_eq_inf_cols (dK m c) b (Chamfer.row ⟨t.val / 8, hq4⟩ r)).symm

/-- What a point that writes the row-minimum block back writes is that block of the row minimum. -/
theorem flushed_rows (c : Dev nD) (t : Fin cfg0.N) (hf : (cfg0.win 2).flush t = true) :
    (dats m 0 c).flushed 2 t = ((cfg0.win 2).blk t).view.read (Elt Ideal) (Chamfer.rowMin (dK m c)) := by
  have h7 : t.val % 8 = 7 := (flush0_2 t).mp hf
  show (cfg0.win 2).cut (grid0.coords t) ((dats m 0 c).after 2 t) = _
  rw [after0_2]
  funext y
  exact flush_rows_at m c t h7 y

/-- The four written blocks tile the array. -/
theorem cover_rows (i : S2x8192.Idx) : ∃ t : Fin cfg0.N, (cfg0.win 2).flush t = true ∧ i ∈ ((cfg0.win 2).blk t).view.set := by
  have h0 : (i 0).val < 2 := (i 0).isLt
  have h1 : (i 1).val < 8192 := (i 1).isLt
  have hlt : 8 * ((i 1).val / 2048) + 7 < cfg0.N := by rw [show cfg0.N = 32 from N_0]; omega
  refine ⟨⟨8 * ((i 1).val / 2048) + 7, hlt⟩, (flush0_2 _).mpr (by show (8 * ((i 1).val / 2048) + 7) % 8 = 7; omega), ?_⟩
  obtain ⟨i0, i1⟩ := idx2 ⟨8 * ((i 1).val / 2048) + 7, hlt⟩
  have i1' : win0_2.index ⟨8 * ((i 1).val / 2048) + 7, hlt⟩ (1 : Fin 2) = (i 1).val / 2048 := by
    rw [i1]; show (8 * ((i 1).val / 2048) + 7) / 8 = (i 1).val / 2048; omega
  rw [mem_rows]
  intro a
  match a with
  | ⟨0, _⟩ =>
    show win0_2.index ⟨8 * ((i 1).val / 2048) + 7, hlt⟩ (0 : Fin 2) * 2 ≤ (i 0).val
      ∧ (i 0).val < win0_2.index ⟨8 * ((i 1).val / 2048) + 7, hlt⟩ (0 : Fin 2) * 2 + 2
    rw [i0]; omega
  | ⟨1, _⟩ =>
    show win0_2.index ⟨8 * ((i 1).val / 2048) + 7, hlt⟩ (1 : Fin 2) * 2048 ≤ (i 1).val
      ∧ (i 1).val < win0_2.index ⟨8 * ((i 1).val / 2048) + 7, hlt⟩ (1 : Fin 2) * 2048 + 2048
    rw [i1']; omega

/-- After the run the row-minimum array holds, for each point of the first cloud, the least distance to the second. -/
theorem final_rows (c : Dev nD) : (dats m 0 c).arrAt 2 cfg0.N = Chamfer.rowMin (dK m c) :=
  (dats m 0 c).arrAt_eq_of_cover 2 (Chamfer.rowMin (dK m c)) (flushed_rows m c) cover_rows

/-! ## The tile-minimum array -/

theorem mem_tiles (t : Fin cfg0.N) (i : S4x2x8192.Idx) :
    i ∈ ((cfg0.win 3).blk t).view.set ↔ ∀ a : Fin 3, win0_3.index t a * S1x2x1024.size a ≤ (i a).val ∧ (i a).val < win0_3.index t a * S1x2x1024.size a + S1x2x1024.size a := by
  show i ∈ ((View.whole main_v0_1).slice (win0_3.rect t)).set ↔ _
  rw [View.set_slice_whole, Rect.mem_set_unit]
  exact Iff.rfl

/-- What a point writes back into the tile-minimum array, entry by entry. -/
theorem flush_tiles_at (c : Dev nD) (t : Fin cfg0.N) (y : S1x2x1024.Idx) :
    (outsAt0 m c t.val t.isLt).2 y = Chamfer.tileMin (dK m c) (((cfg0.win 3).blk t).view.emb y) := by
  obtain ⟨u, b, j, rfl⟩ : ∃ (u : Fin 1) (b : Fin 2) (j : Fin 1024), y = ix3 u b j := ⟨y 0, y 1, y 2, eq_ix3 y⟩
  have h32 := lt32 t
  obtain ⟨i0, i1, i2⟩ := idx3 t
  have hq4 : t.val / 8 < 4 := by omega
  have hp8 : t.val % 8 < 8 := by omega
  have hu : u.val = 0 := by omega
  have eemb : ((cfg0.win 3).blk t).view.emb (ix3 u b j) = ix3 (⟨t.val / 8, hq4⟩ : Fin 4) b (Chamfer.col ⟨t.val % 8, hp8⟩ j) := by
    funext a; apply Fin.ext
    match a with
    | ⟨0, _⟩ => show win0_3.index t (0 : Fin 3) * 1 + 1 * u.val = t.val / 8; rw [i0]; omega
    | ⟨1, _⟩ => show win0_3.index t (1 : Fin 3) * 2 + 1 * b.val = b.val; rw [i1]; omega
    | ⟨2, _⟩ => show win0_3.index t (2 : Fin 3) * 1024 + 1 * j.val = t.val % 8 * 1024 + j.val; rw [i2]; omega
  rw [eemb, Chamfer.tileMin_apply]
  exact tile_cols m c t ⟨t.val / 8, hq4⟩ ⟨t.val % 8, hp8⟩ rfl rfl u b j

theorem flushed_tiles (c : Dev nD) (t : Fin cfg0.N) (hf : (cfg0.win 3).flush t = true) :
    (dats m 0 c).flushed 3 t = ((cfg0.win 3).blk t).view.read (Elt Ideal) (Chamfer.tileMin (dK m c)) := by
  show (cfg0.win 3).cut (grid0.coords t) ((dats m 0 c).after 3 t) = _
  rw [after0_3]
  funext y
  exact flush_tiles_at m c t y

/-- The 32 written blocks tile the array. -/
theorem cover_tiles (i : S4x2x8192.Idx) : ∃ t : Fin cfg0.N, (cfg0.win 3).flush t = true ∧ i ∈ ((cfg0.win 3).blk t).view.set := by
  have h0 : (i 0).val < 4 := (i 0).isLt
  have h1 : (i 1).val < 2 := (i 1).isLt
  have h2 : (i 2).val < 8192 := (i 2).isLt
  have hlt : 8 * (i 0).val + (i 2).val / 1024 < cfg0.N := by rw [show cfg0.N = 32 from N_0]; omega
  refine ⟨⟨8 * (i 0).val + (i 2).val / 1024, hlt⟩, flush0_3 _, ?_⟩
  obtain ⟨i0, i1, i2⟩ := idx3 ⟨8 * (i 0).val + (i 2).val / 1024, hlt⟩
  have i0' : win0_3.index ⟨8 * (i 0).val + (i 2).val / 1024, hlt⟩ (0 : Fin 3) = (i 0).val := by
    rw [i0]; show (8 * (i 0).val + (i 2).val / 1024) / 8 = (i 0).val; omega
  have i2' : win0_3.index ⟨8 * (i 0).val + (i 2).val / 1024, hlt⟩ (2 : Fin 3) = (i 2).val / 1024 := by
    rw [i2]; show (8 * (i 0).val + (i 2).val / 1024) % 8 = (i 2).val / 1024; omega
  rw [mem_tiles]
  intro a
  match a with
  | ⟨0, _⟩ =>
    show win0_3.index ⟨8 * (i 0).val + (i 2).val / 1024, hlt⟩ (0 : Fin 3) * 1 ≤ (i 0).val
      ∧ (i 0).val < win0_3.index ⟨8 * (i 0).val + (i 2).val / 1024, hlt⟩ (0 : Fin 3) * 1 + 1
    rw [i0']; omega
  | ⟨1, _⟩ =>
    show win0_3.index ⟨8 * (i 0).val + (i 2).val / 1024, hlt⟩ (1 : Fin 3) * 2 ≤ (i 1).val
      ∧ (i 1).val < win0_3.index ⟨8 * (i 0).val + (i 2).val / 1024, hlt⟩ (1 : Fin 3) * 2 + 2
    rw [i1]; omega
  | ⟨2, _⟩ =>
    show win0_3.index ⟨8 * (i 0).val + (i 2).val / 1024, hlt⟩ (2 : Fin 3) * 1024 ≤ (i 2).val
      ∧ (i 2).val < win0_3.index ⟨8 * (i 0).val + (i 2).val / 1024, hlt⟩ (2 : Fin 3) * 1024 + 1024
    rw [i2']; omega

/-- After the run the tile-minimum array holds, for each row tile and each point of the second cloud, the least
    distance to a row of that tile. -/
theorem final_tiles (c : Dev nD) : (dats m 0 c).arrAt 3 cfg0.N = Chamfer.tileMin (dK m c) :=
  (dats m 0 c).arrAt_eq_of_cover 3 (Chamfer.tileMin (dK m c)) (flushed_tiles m c) cover_tiles

end Cert.KernelIdeal.Blocks

end
-- ==== Proof.Mean.lean ====
/-
  The closing step both programs share: the mean of each of the two minimum arrays, added.

  Each program sums a 2 × 8192 array from zero, divides by 16384, does the same with a second array, and adds the two
  quotients. The step is kept as one function of the two arrays: the certificate shows the arrays equal and never
  opens the sums or the quotients.
-/
import Idealize.ShloMosaic.PureOps
import Idealize.ShloMosaic.PureOps.Ideal

noncomputable section

namespace Chamfer

open Idealize.ShloMosaic

/-- Sum over everything from zero, divided by 16384, for each of two 2 × 8192 arrays; the two quotients added. -/
def meanSum (h : (⟨2, ![2, 8192]⟩ : Shape).ReducesTo [0, 1] ⟨0, ![]⟩) (h0 : 0 < (⟨0, ![]⟩ : Shape).numel)
    (a c : FVec Ideal ⟨2, ![2, 8192]⟩ .f32) : FVec Ideal ⟨0, ![]⟩ .f32 :=
  addf
    (Host.divf (Host.reduceAdd a (constant (F := Ideal) ⟨0, ![]⟩ .f32 0x00000000#32) h h0)
      (constant (F := Ideal) ⟨0, ![]⟩ .f32 0x46800000#32))
    (Host.divf (Host.reduceAdd c (constant (F := Ideal) ⟨0, ![]⟩ .f32 0x00000000#32) h h0)
      (constant (F := Ideal) ⟨0, ![]⟩ .f32 0x46800000#32))

end Chamfer

end
-- ==== Proof.Tail.lean ====
/-
  The kernel's program after the region: the minimum over the four row tiles, then the two means.

  The host takes, from +∞, the minimum over the leading axis of the tile-minimum array: at (b, m) the least over the
  four row tiles of the tile's least distance, which is the least distance over all rows. It then closes with the
  step the reference shares: the mean of the row-minimum array plus the mean of that column-minimum array.
-/
import proofs.«107196_j4733053960750_2_alg».proof.Proof.Blocks
import proofs.«107196_j4733053960750_2_alg».proof.Proof.Mean
import Idealize.ShloMosaic.Lib.StableHlo.Run
import Idealize.ShloMosaic.PureOps.Reduce

set_option maxRecDepth 16384

noncomputable section

namespace Cert.KernelIdeal.Tail

open Idealize.ShloMosaic Idealize.ShloMosaic.TcCoe Idealize.ShloMosaic.ValueIdx Idealize.SL.Sem Cert.KernelIdeal Cert.KernelIdeal.Gen
open Idealize.ShloMosaic.StableHlo Cert.KernelIdeal.Blocks
open Idealize.ShloMosaic.Pipeline (Dat)

variable (m : (ℓ : Loc nD τ sig) → Buf (Elt Ideal) ℓ) (ρ : Dev nD → PrngReg)

/-- A minimum from +∞ along the leading axis of a 4 × 2 × 8192 array is the infimum over the four leading indices. -/
theorem min_lead (Pt : FVec Ideal S4x2x8192 .f32) (b : Fin 2) (n : Fin 8192) :
    Host.reduce FloatOps.minimumf Pt (constant (F := Ideal) S_ .f32 0x7F800000#32) reducesTo_S4x2x8192_S2x8192_d0 h_S_ (ix2 b n)
      = Finset.univ.inf fun q : Fin 4 => Pt (ix3 q b n) := by
  have h : S4x2x8192.Reduces [0] S2x8192 := by decide
  refine (Host.reduce_eq_fold_single (α := Ideal .f32) FloatOps.minimumf Pt (constant (F := Ideal) S_ .f32 0x7F800000#32)
    reducesTo_S4x2x8192_S2x8192_d0 h h_S_ (ix2 b n)).trans ?_
  show (Finset.univ : Finset (Fin 4)).fold min (Ideal.ofBits .f32 0x7F800000#32) (fun q => Pt (h.lift (ix2 b n) q)) = _
  rw [Chamfer.word_top]
  refine (InfChunks.fold_min_top (Finset.univ : Finset (Fin 4)) fun q => Pt (h.lift (ix2 b n) q)).trans ?_
  refine Finset.inf_congr rfl fun q _ => congrArg Pt (funext fun a => Fin.ext ?_)
  match a with
  | ⟨0, _⟩ => rfl
  | ⟨1, _⟩ => rfl
  | ⟨2, _⟩ => rfl

/-- The minimum over the four row tiles of the tile minima is, for each point of the second cloud, the least distance
    to a point of the first. -/
theorem cols_of_tiles (d : Chamfer.Dist) :
    Host.reduce FloatOps.minimumf (Chamfer.tileMin d) (constant (F := Ideal) S_ .f32 0x7F800000#32) reducesTo_S4x2x8192_S2x8192_d0 h_S_
      = Chamfer.colMin d := by
  funext i
  obtain ⟨b, n, rfl⟩ : ∃ (b : Fin 2) (n : Fin 8192), i = ix2 b n := ⟨i 0, i 1, eq_ix2 i⟩
  exact (min_lead (Chamfer.tileMin d) b n).trans (Chamfer.colMin_eq_inf_tileMin d b n).symm

/-- The program's result: the closing step of the row minimum and the column minimum of the two clouds' distances. -/
theorem result_eq (c : Dev nD) :
    Pipeline.afterTail₀ cfgs (dats m) 0 (V0 m) [hostOps1] c main_v6
      = Chamfer.meanSum reducesTo_S2x8192_S_d0_1 h_S_ (Chamfer.rowMin (dK m c)) (Chamfer.colMin (dK m c)) := by
  unfold Pipeline.afterTail₀
  show StableHlo.after hostOps1 _ (Proc.devRef .tc main_v6) = _
  after_results
  have e2 : Pipeline.withArrays (cfgs 0).spec c (V0 m c) (fun w => (dats m 0 c).arrAt w (cfgs 0).N) (Proc.devRef .tc main_v0_0)
      = Chamfer.rowMin (dK m c) :=
    (Pipeline.withArrays_arr spec0 launch0.win.arr_inj c _ _ 2).trans (final_rows m c)
  have e3 : Pipeline.withArrays (cfgs 0).spec c (V0 m c) (fun w => (dats m 0 c).arrAt w (cfgs 0).N) (Proc.devRef .tc main_v0_1)
      = Chamfer.tileMin (dK m c) :=
    (Pipeline.withArrays_arr spec0 launch0.win.arr_inj c _ _ 3).trans (final_tiles m c)
  rw [e2, e3, cols_of_tiles]
  rfl

end Cert.KernelIdeal.Tail

end
-- ==== Proof.RefValue.lean ====
/-
  The reference's two minima, read entry by entry on the extended reals.

  The reference forms the whole 8192 × 8192 table of squared distances per batch, (0 + Σ x²) + (0 + Σ y²) − 2·(Σ x·y)
  at (n, m), and reduces it by minimum from +∞ along the columns and along the rows: the results are, for each point
  of the first cloud, the least distance to the second, and for each point of the second, the least to the first.
-/
import proofs.«107196_j4733053960750_2_alg».proof.Proof.Gen.ReferenceIdeal.Read
import proofs.«107196_j4733053960750_2_alg».proof.Proof.Dist
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read

/-- The table's entry (b, n, m) is the squared distance in the reference's spelling. -/
theorem table_apply (x0 x1 : (⟨S2x8192x3, .f32⟩ : BufTy).Contents (Elt Ideal)) (b : Fin 2) (n m : Fin 8192) :
    val_main_v12 (F := Ideal) x0 x1 (ix3 b n m) = Chamfer.distR x0 x1 b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v5_apply, val_main_v1_apply,
    val_main_v8_apply, val_main_v6_apply, val_main_v3_apply, val_main_v10_apply, val_main_v4_apply]
  simp only [e1, e3, el, er, val_main_v0_apply, val_main_v2_apply, val_main_cst_apply, val_main_cst_0_apply,
    val_main_cst_1_apply, Ideal.subf_def, Ideal.addf_def, Ideal.mulf_def, Ideal.ofBits_def]
  rfl

/-- A minimum from +∞ along the last axis of a table is the infimum over that axis. -/
theorem min_last (T : FVec Ideal S2x8192x8192 .f32) (b : Fin 2) (n : Fin 8192) :
    Host.reduce FloatOps.minimumf T (val_main_cst_2 (F := Ideal)) reducesTo_S2x8192x8192_S2x8192_d2 h_S_ (ix2 b n)
      = Finset.univ.inf fun m : Fin 8192 => T (ix3 b n m) := by
  have h : S2x8192x8192.Reduces [2] S2x8192 := by decide
  refine (Host.reduce_eq_fold_single (α := Ideal .f32) FloatOps.minimumf T (val_main_cst_2 (F := Ideal))
    reducesTo_S2x8192x8192_S2x8192_d2 h h_S_ (ix2 b n)).trans ?_
  show (Finset.univ : Finset (Fin 8192)).fold min (Ideal.ofBits .f32 0x7F800000#32) (fun m => T (h.lift (ix2 b n) m)) = _
  rw [Chamfer.word_top]
  refine (InfChunks.fold_min_top (Finset.univ : Finset (Fin 8192)) fun m => T (h.lift (ix2 b n) m)).trans ?_
  refine Finset.inf_congr rfl fun m _ => congrArg T (funext fun c => Fin.ext ?_)
  match c with
  | ⟨0, _⟩ => rfl
  | ⟨1, _⟩ => rfl
  | ⟨2, _⟩ => rfl

/-- A minimum from +∞ along the middle axis of a table is the infimum over that axis. -/
theorem min_mid (T : FVec Ideal S2x8192x8192 .f32) (b : Fin 2) (m : Fin 8192) :
    Host.reduce FloatOps.minimumf T (val_main_cst_3 (F := Ideal)) reducesTo_S2x8192x8192_S2x8192_d1 h_S_ (ix2 b m)
      = Finset.univ.inf fun n : Fin 8192 => T (ix3 b n m) := by
  have h : S2x8192x8192.Reduces [1] S2x8192 := by decide
  refine (Host.reduce_eq_fold_single (α := Ideal .f32) FloatOps.minimumf T (val_main_cst_3 (F := Ideal))
    reducesTo_S2x8192x8192_S2x8192_d1 h h_S_ (ix2 b m)).trans ?_
  show (Finset.univ : Finset (Fin 8192)).fold min (Ideal.ofBits .f32 0x7F800000#32) (fun n => T (h.lift (ix2 b m) n)) = _
  rw [Chamfer.word_top]
  refine (InfChunks.fold_min_top (Finset.univ : Finset (Fin 8192)) fun n => T (h.lift (ix2 b m) n)).trans ?_
  refine Finset.inf_congr rfl fun n _ => congrArg T (funext fun c => Fin.ext ?_)
  match c with
  | ⟨0, _⟩ => rfl
  | ⟨1, _⟩ => rfl
  | ⟨2, _⟩ => rfl

/-- The minimum along the columns: for each point of the first cloud the least distance to the second. -/
theorem rows_eq (x0 x1 : (⟨S2x8192x3, .f32⟩ : BufTy).Contents (Elt Ideal)) :
    val_main_v13 (F := Ideal) x0 x1 = Chamfer.rowMin (Chamfer.distR x0 x1) := by
  funext i
  obtain ⟨b, n, rfl⟩ : ∃ (b : Fin 2) (n : Fin 8192), i = ix2 b n := ⟨i 0, i 1, eq_ix2 i⟩
  unfold val_main_v13
  refine (min_last (val_main_v12 (F := Ideal) x0 x1) b n).trans ?_
  rw [Chamfer.rowMin_apply]
  exact Finset.inf_congr rfl fun m _ => table_apply x0 x1 b n m

/-- The minimum along the rows: for each point of the second cloud the least distance to the first. -/
theorem cols_eq (x0 x1 : (⟨S2x8192x3, .f32⟩ : BufTy).Contents (Elt Ideal)) :
    val_main_v14 (F := Ideal) x0 x1 = Chamfer.colMin (Chamfer.distR x0 x1) := by
  funext i
  obtain ⟨b, m, rfl⟩ : ∃ (b : Fin 2) (m : Fin 8192), i = ix2 b m := ⟨i 0, i 1, eq_ix2 i⟩
  unfold val_main_v14
  refine (min_mid (val_main_v12 (F := Ideal) x0 x1) b m).trans ?_
  rw [Chamfer.colMin_apply]
  exact Finset.inf_congr rfl fun n _ => table_apply x0 x1 b n m

end Cert.ReferenceIdeal.RefValue

end
-- ==== Proof.Finite.lean ====
/-
  The precondition, read back: every entry of both clouds is a real number.

  The precondition compares each entry's absolute value with +∞ and takes the conjunction over all entries of both
  clouds. On the extended reals the absolute value of x is max x (−x), which is +∞ exactly at the two infinities, so
  an entry that passes the comparison is the image of a real number.
-/
import proofs.«107196_j4733053960750_2_alg».proof.Pre_finite_inputs
import proofs.«107196_j4733053960750_2_alg».proof.Proof.Dist
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

variable [Facts]

/-- The precondition's result has one index. -/
instance : Subsingleton S_.Idx := ⟨fun a b => funext fun d => d.elim0⟩

/-- An extended real whose absolute value lies strictly below +∞ is a real number. -/
theorem real_of_abs_lt (x : EReal)
    (h : Ideal.cmp .olt (max x (-x)) (Ideal.ofBits .f32 0x7F800000#32) = 1#1) : ∃ r : ℝ, x = (r : EReal) := by
  rw [Chamfer.word_top] at h
  induction x using EReal.rec with
  | bot => simp [Ideal.cmp] at h
  | top => simp [Ideal.cmp] at h
  | coe r => exact ⟨r, rfl⟩

/-- Under the precondition every entry of both clouds is a real number. -/
theorem reals_of_pre (x y : FVec Ideal S2x8192x3 .f32) (h : fn (F := Ideal) x y = fun _ => 1#1) :
    (∀ i, ∃ r : ℝ, x i = (r : EReal)) ∧ (∀ i, ∃ r : ℝ, y i = (r : EReal)) := by
  have h0 := congrFun h ValueIdx.ix0
  dsimp only [fn] at h0
  obtain ⟨hx, hy⟩ := IntOp.andi_eq_one.1 h0
  exact ⟨fun i => real_of_abs_lt _ (Host.reduce_andi_all _ _ _ _ _ hx i),
    fun i => real_of_abs_lt _ (Host.reduce_andi_all _ _ _ _ _ hy i)⟩

/-- A family of extended reals that are all real is the image of the family of their real parts. -/
theorem eq_coe_toReal {ι : Type} (x : ι → EReal) (h : ∀ i, ∃ r : ℝ, x i = (r : EReal)) :
    x = fun i => (((x i).toReal : ℝ) : EReal) :=
  funext fun i => by obtain ⟨r, hr⟩ := h i; rw [hr, EReal.toReal_coe]

/-- Under the precondition the kernel's and the reference's spellings of the squared distance agree everywhere. -/
theorem distK_eq_distR_of_pre (x y : FVec Ideal S2x8192x3 .f32) (h : fn (F := Ideal) x y = fun _ => 1#1)
    (b : Fin 2) (n m : Fin 8192) : Chamfer.distK x y b n m = Chamfer.distR x y b n m := by
  obtain ⟨hx, hy⟩ := reals_of_pre x y h
  rw [eq_coe_toReal x hx, eq_coe_toReal y hy]
  exact Chamfer.distK_eq_distR _ _ b n m

end Cert.Pre_finite_inputs.Finite

end
-- ==== Proof.lean ====
/-
  Chamfer distance between two clouds of 8192 points, two batches: the mean over the first cloud of the least squared
  distance to the second, plus the mean over the second of the least squared distance to the first.

  The kernel walks the 8192 × 8192 table of squared distances in tiles of 2048 rows by 1024 columns. In each tile it
  writes the squared distance as (Σ x² + Σ y²) + Σ x·(−2·y); it keeps a running minimum of each row across the eight
  column tiles, starting from +∞, and writes each tile's column minima to a slot of their own, which the host then
  reduces by minimum over the four row tiles. The reference builds the whole table as (Σ x² + Σ y²) − 2·(Σ x·y) and
  reduces it once along each axis. Both close with the same step: each minimum array summed, divided by 16384, the two
  quotients added.

  On the extended reals a minimum taken tile by tile is the minimum over everything, whatever the entries are. The two
  spellings of the squared distance differ by moving the factor −2 across a three-term sum, which is distributivity
  and holds once every coordinate is a real number: that is what the precondition gives. So the two pairs of minimum
  arrays are equal entry by entry, and the shared closing step is never opened.

  The ideal pass rewrote nothing, so the kernel's idealization is its own text and that conjunct is trivial. The two
  kernel frames are the generated ones; the reference's frame is its generated run with the result dropped.
-/
import proofs.«107196_j4733053960750_2_alg».proof.Defs
import proofs.«107196_j4733053960750_2_alg».proof.Proof.Gen.Kernel
import proofs.«107196_j4733053960750_2_alg».proof.Proof.Gen.Kernel.Frame
import proofs.«107196_j4733053960750_2_alg».proof.Proof.Gen.KernelIdeal
import proofs.«107196_j4733053960750_2_alg».proof.Proof.Gen.KernelIdeal.Frame
import proofs.«107196_j4733053960750_2_alg».proof.Proof.Gen.ReferenceIdeal
import proofs.«107196_j4733053960750_2_alg».proof.Proof.Gen.ReferenceIdeal.Run
import proofs.«107196_j4733053960750_2_alg».proof.Proof.Gen.ReferenceIdeal.Read
import proofs.«107196_j4733053960750_2_alg».proof.Proof.Gen.Pre_finite_inputs
import proofs.«107196_j4733053960750_2_alg».proof.Proof.Tail
import proofs.«107196_j4733053960750_2_alg».proof.Proof.RefValue
import proofs.«107196_j4733053960750_2_alg».proof.Proof.Finite
import proofs.«107196_j4733053960750_2_alg».proof.Proof.Mean

set_option maxRecDepth 16384

noncomputable section

namespace Cert.Proof

open Idealize.ShloMosaic Idealize.ShloMosaic.TcCoe Idealize.SL.Sem

/-! ## The kernel's run, read at its result -/

section KernelRun

open Cert.KernelIdeal Cert.KernelIdeal.Gen Cert.KernelIdeal.Blocks

/-- The result buffer is no window's array and is not scoped: the run's post speaks of it through the host tail. -/
theorem result_rest : main_v6 ∈ Pipeline.restRefs sig (cfgs 0).spec :=
  Pipeline.mem_restRefs_of main_v6 rfl (fun w => by fin_cases w <;> decide)

/-- Every execution of the idealized kernel's program ends with its result at the closing step of the two clouds' row
    and column minima, the clouds unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6)
          = Chamfer.meanSum reducesTo_S2x8192_S_d0_1 h_S_ (Chamfer.rowMin (dK m c)) (Chamfer.colMin (dK m c))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨((h c).2 main_v6 result_rest).trans (Cert.KernelIdeal.Tail.result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end KernelRun

/-! ## The reference's result as the closing step of its two minimum arrays -/

/-- The reference's last six operations are the shared closing step of its two minimum arrays. -/
theorem reference_closing (x0 x1 : (⟨Cert.ReferenceIdeal.S2x8192x3, .f32⟩ : BufTy).Contents (Elt Ideal)) :
    Cert.ReferenceIdeal.Read.val_main_v19 (F := Ideal) x0 x1
      = Chamfer.meanSum Cert.ReferenceIdeal.Facts₀.reducesTo_S2x8192_S_d0_1 Cert.ReferenceIdeal.Facts₀.h_S_
          (Cert.ReferenceIdeal.Read.val_main_v13 (F := Ideal) x0 x1) (Cert.ReferenceIdeal.Read.val_main_v14 (F := Ideal) x0 x1) := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From clouds that agree and are finite, both programs end at the closing step of equal minimum arrays. -/
theorem algebraic : Cert.algebraic_KernelIdeal_ReferenceIdeal := by
  intro m ρ m' ρ' hpre hagree
  refine ⟨fun c => Chamfer.meanSum Cert.KernelIdeal.Facts₀.reducesTo_S2x8192_S_d0_1 Cert.KernelIdeal.Facts₀.h_S_
      (Chamfer.rowMin (Cert.KernelIdeal.Blocks.dK m c)) (Chamfer.colMin (Cert.KernelIdeal.Blocks.dK m c)),
    kernel_run m ρ, ?_⟩
  refine (θ_run Cert.ReferenceIdeal.defs _ _).mono (fun _ h c => ⟨(h c).1.trans ?_, (h c).2⟩)
    (Cert.ReferenceIdeal.Value.run (F := Ideal) m' ρ')
  have hd : ∀ b n k, Cert.KernelIdeal.Blocks.dK m c b n k
      = Chamfer.distR (Cert.KernelIdeal.Blocks.X m c) (Cert.KernelIdeal.Blocks.Y m c) b n k :=
    Cert.Pre_finite_inputs.Finite.distK_eq_distR_of_pre _ _ (hpre c)
  rw [Cert.ReferenceIdeal.Read.val_main_v19_eq, reference_closing, Cert.ReferenceIdeal.RefValue.rows_eq,
    Cert.ReferenceIdeal.RefValue.cols_eq, (hagree c).1, (hagree c).2]
  exact congrArg₂ (Chamfer.meanSum _ _) (Chamfer.rowMin_congr hd).symm (Chamfer.colMin_congr hd).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
